-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S100000x512 .f32) (main_arg1 : FVec F S512x1024 .f32) (main_arg2 : FVec F S1024 .f32) (main_arg3 : FVec F S1024x256 .f32) (main_arg4 : FVec F S256 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S1x1024 : Shape := ⟨2, ![1, 1024]⟩
abbrev S1x256 : Shape := ⟨2, ![1, 256]⟩
abbrev S100000x256 : Shape := ⟨2, ![100000, 256]⟩
abbrev S5000x512 : Shape := ⟨2, ![5000, 512]⟩
abbrev S5000x256 : Shape := ⟨2, ![5000, 256]⟩
abbrev S1000x512 : Shape := ⟨2, ![1000, 512]⟩
abbrev S1000x1024 : Shape := ⟨2, ![1000, 1024]⟩
abbrev S1000x256 : Shape := ⟨2, ![1000, 256]⟩
abbrev S1000 : Shape := ⟨1, ![1000]⟩
abbrev S1000x1 : Shape := ⟨2, ![1000, 1]⟩

abbrev nBuf : Space → Nat
  | .hbm => 10
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S512x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S512x1024, .bf16⟩
  | .hbm, ⟨6, _⟩ => ⟨S1024x256, .bf16⟩
  | .hbm, ⟨7, _⟩ => ⟨S1x1024, .f32⟩
  | .hbm, ⟨8, _⟩ => ⟨S1x256, .f32⟩
  | .hbm, ⟨9, _⟩ => ⟨S100000x256, .f32⟩
  | .local _ .vmem, ⟨0, _⟩ => ⟨S5000x512, .f32⟩
  | .local _ .vmem, ⟨1, _⟩ => ⟨S5000x512, .f32⟩
  | .local _ .vmem, ⟨2, _⟩ => ⟨S512x1024, .bf16⟩
  | .local _ .vmem, ⟨3, _⟩ => ⟨S1x1024, .f32⟩
  | .local _ .vmem, ⟨4, _⟩ => ⟨S1024x256, .bf16⟩
  | .local _ .vmem, ⟨5, _⟩ => ⟨S1x256, .f32⟩
  | .local _ .vmem, ⟨6, _⟩ => ⟨S5000x256, .f32⟩
  | .local _ .vmem, ⟨7, _⟩ => ⟨S5000x256, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S1024_S1x1024 : S1024.ShapeCasts S1x1024
  shapeCasts_S256_S1x256 : S256.ShapeCasts S1x256
  inb_S5000x512_S1000x512_0_0 : ∀ a, (![0, 0] : Fin 2 → Nat) a + S1000x512.size a ≤ S5000x512.size a
  h_S1000x512 : 0 < S1000x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  inb_S5000x256_S1000x256_0_0 : ∀ a, (![0, 0] : Fin 2 → Nat) a + S1000x256.size a ≤ S5000x256.size a
  h_S1000x256 : 0 < S1000x256.numel
  inb_S5000x512_S1000x512_1000_0 : ∀ a, (![1000, 0] : Fin 2 → Nat) a + S1000x512.size a ≤ S5000x512.size a
  inb_S5000x256_S1000x256_1000_0 : ∀ a, (![1000, 0] : Fin 2 → Nat) a + S1000x256.size a ≤ S5000x256.size a
  inb_S5000x512_S1000x512_2000_0 : ∀ a, (![2000, 0] : Fin 2 → Nat) a + S1000x512.size a ≤ S5000x512.size a
  inb_S5000x256_S1000x256_2000_0 : ∀ a, (![2000, 0] : Fin 2 → Nat) a + S1000x256.size a ≤ S5000x256.size a
  inb_S5000x512_S1000x512_3000_0 : ∀ a, (![3000, 0] : Fin 2 → Nat) a + S1000x512.size a ≤ S5000x512.size a
  inb_S5000x256_S1000x256_3000_0 : ∀ a, (![3000, 0] : Fin 2 → Nat) a + S1000x256.size a ≤ S5000x256.size a
  inb_S5000x512_S1000x512_4000_0 : ∀ a, (![4000, 0] : Fin 2 → Nat) a + S1000x512.size a ≤ S5000x512.size a
  inb_S5000x256_S1000x256_4000_0 : ∀ a, (![4000, 0] : Fin 2 → Nat) a + S1000x256.size a ≤ S5000x256.size a
  dot_S1000x512_S512x1024_S1000x1024_1_0_0_1_n_n_wf : DotDims.WF S1000x512 S512x1024 S1000x1024 [1] [0] [0] [1] [] []
  dot_S1000x1024_S1024x256_S1000x256_1_0_0_1_n_n_wf : DotDims.WF S1000x1024 S1024x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S100000x256.size a
  hwx0_5 : ∀ i : grid0.Coords, EltTy.bits .f32 = 32 ∨ (Rect.block (s := S100000x256) S5000x256.size (cc0_transform_5 i) (hinb0_5 i)).WholeWords (EltTy.packing .f32)

variable [Facts₀]

def dot_S1000x512_S512x1024_S1000x1024_1_0_0_1_n_n : DotDims S1000x512 S512x1024 S1000x1024 where
  lhsContracting := [1]
  rhsContracting := [0]
  lhsNonContracting := [0]
  rhsNonContracting := [1]
  lhsBatch := []
  rhsBatch := []
  wf := dot_S1000x512_S512x1024_S1000x1024_1_0_0_1_n_n_wf
def dot_S1000x1024_S1024x256_S1000x256_1_0_0_1_n_n : DotDims S1000x1024 S1024x256 S1000x256 where
  lhsContracting := [1]
  rhsContracting := [0]
  lhsNonContracting := [0]
  rhsNonContracting := [1]
  lhsBatch := []
  rhsBatch := []
  wf := dot_S1000x1024_S1024x256_S1000x256_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S100000x1024 : Shape := ⟨2, ![100000, 1024]⟩
abbrev S1x1024 : Shape := ⟨2, ![1, 1024]⟩
abbrev S_ : Shape := ⟨0, ![]⟩
abbrev S100000x256 : Shape := ⟨2, ![100000, 256]⟩
abbrev S1x256 : Shape := ⟨2, ![1, 256]⟩
abbrev S100000 : Shape := ⟨1, ![100000]⟩
abbrev S100000x1 : Shape := ⟨2, ![100000, 1]⟩

abbrev nBuf : Space → Nat
  | .hbm => 31
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x1024, .f32⟩
  | .hbm, ⟨2, _⟩ => ⟨S1024, .f32⟩
  | .hbm, ⟨3, _⟩ => ⟨S1024x256, .f32⟩
  | .hbm, ⟨4, _⟩ => ⟨S256, .f32⟩
  | .hbm, ⟨5, _⟩ => ⟨S100000x1024, .f32⟩
  | .hbm, ⟨6, _⟩ => ⟨S1x1024, .f32⟩
  | .hbm, ⟨7, _⟩ => ⟨S100000x1024, .f32⟩
  | .hbm, ⟨8, _⟩ => ⟨S100000x1024, .f32⟩
  | .hbm, ⟨9, _⟩ => ⟨S_, .f32⟩
  | .hbm, ⟨10, _⟩ => ⟨S100000x1024, .f32⟩
  | .hbm, ⟨11, _⟩ => ⟨S100000x1024, .f32⟩
  | .hbm, ⟨12, _⟩ => ⟨S100000x256, .f32⟩
  | .hbm, ⟨13, _⟩ => ⟨S1x256, .f32⟩
  | .hbm, ⟨14, _⟩ => ⟨S100000x256, .f32⟩
  | .hbm, ⟨15, _⟩ => ⟨S100000x256, .f32⟩
  | .hbm, ⟨16, _⟩ => ⟨S_, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x256, .f32⟩
  | .hbm, ⟨23, _⟩ => ⟨S100000x256, .f32⟩
  | .hbm, ⟨24, _⟩ => ⟨S100000x256, .f32⟩
  | .hbm, ⟨25, _⟩ => ⟨S_, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S100000x256, .f32⟩
  | .hbm, ⟨30, _⟩ => ⟨S100000x256, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_call1_cst_0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_cst_1 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_v9 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  dot_S100000x512_S512x1024_S100000x1024_1_0_0_1_n_n_wf : DotDims.WF S100000x512 S512x1024 S100000x1024 [1] [0] [0] [1] [] []
  dot_S100000x1024_S1024x256_S100000x256_1_0_0_1_n_n_wf : DotDims.WF S100000x1024 S1024x256 S100000x256 [1] [0] [0] [1] [] []

variable [Facts₀]

def dot_S100000x512_S512x1024_S100000x1024_1_0_0_1_n_n : DotDims S100000x512 S512x1024 S100000x1024 where
  lhsContracting := [1]
  rhsContracting := [0]
  lhsNonContracting := [0]
  rhsNonContracting := [1]
  lhsBatch := []
  rhsBatch := []
  wf := dot_S100000x512_S512x1024_S100000x1024_1_0_0_1_n_n_wf
def dot_S100000x1024_S1024x256_S100000x256_1_0_0_1_n_n : DotDims S100000x1024 S1024x256 S100000x256 where
  lhsContracting := [1]
  rhsContracting := [0]
  lhsNonContracting := [0]
  rhsNonContracting := [1]
  lhsBatch := []
  rhsBatch := []
  wf := dot_S100000x1024_S1024x256_S100000x256_1_0_0_1_n_n_wf

class Facts : Prop extends Facts₀ where

variable [Facts]
-- ==== Proof.Spec.lean ====
/-
  What both programs compute, written row by row over the extended reals.

  A row x of the input goes through two dense layers: hidden unit k is max (Σ_j x_j · W1[j,k] + b1[k], 0), and logit q is
  Σ_k hidden_k · W2[k,q] + b2[q]. The result row is the logarithm of the softmax of the logits in its shifted form: with
  M the row's maximum (folded from −∞), entry q is (z_q − M) − log Σ_q' exp (z_q' − M).

  The two programs differ only in how they lay this out (row tiles against the whole array, a matrix product into a zero
  accumulator against a plain contraction, one more max with −∞ on one side); none of that changes a row's value, so both
  are read at an entry as `logSoftmaxRow (logitRow …)` and no law of the extended reals beyond `max (−∞) y = y` and
  `0 + y = y` is used. In particular nothing here needs the inputs to be finite.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- Hidden unit `k` of an input row: the first layer's affine value, rectified. -/
def hiddenRow {n₀ n₁ : ℕ} (x : Fin n₀ → EReal) (w1 : Fin n₀ → Fin n₁ → EReal) (b1 : Fin n₁ → EReal) (k : Fin n₁) : EReal :=
  max ((∑ j : Fin n₀, x j * w1 j k) + b1 k) (Ideal.ofBits .f32 0x00000000#32)

/-- Logit `q` of an input row: the second layer's affine value of the hidden units. -/
def logitRow {n₀ n₁ n₂ : ℕ} (x : Fin n₀ → EReal) (w1 : Fin n₀ → Fin n₁ → EReal) (b1 : Fin n₁ → EReal)
    (w2 : Fin n₁ → Fin n₂ → EReal) (b2 : Fin n₂ → EReal) (q : Fin n₂) : EReal :=
  (∑ k : Fin n₁, hiddenRow x w1 b1 k * w2 k q) + b2 q

/-- The maximum of a row, folded from −∞. -/
def rowMax {n : ℕ} (z : Fin n → EReal) : EReal :=
  (Finset.univ : Finset (Fin n)).fold max (Ideal.ofBits .f32 0xFF800000#32) z

/-- Entry `q` of the logarithm of the softmax of a row, in the shifted form both programs use. -/
def logSoftmaxRow {n : ℕ} (z : Fin n → EReal) (q : Fin n) : EReal :=
  (z q - rowMax z) - Ideal.log (∑ q' : Fin n, Ideal.exp (z q' - rowMax z))

/-- The whole result: row `i 0` of the input through both layers, then the log-softmax of its logits at column `i 1`.
    The biases are rank-1 arrays, as the programs' arguments are. -/
def G (X : (⟨2, ![100000, 512]⟩ : Shape).Idx → EReal) (W1 : (⟨2, ![512, 1024]⟩ : Shape).Idx → EReal)
    (B1 : (⟨1, ![1024]⟩ : Shape).Idx → EReal) (W2 : (⟨2, ![1024, 256]⟩ : Shape).Idx → EReal)
    (B2 : (⟨1, ![256]⟩ : Shape).Idx → EReal) : (⟨2, ![100000, 256]⟩ : Shape).Idx → EReal :=
  fun i => logSoftmaxRow
    (logitRow (fun j : Fin 512 => X (ix2 (i 0) j)) (fun (j : Fin 512) (k : Fin 1024) => W1 (ix2 j k)) (fun k : Fin 1024 => B1 (ix1 k))
      (fun (k : Fin 1024) (q : Fin 256) => W2 (ix2 k q)) (fun q : Fin 256 => B2 (ix1 q)))
    (i 1)

/-- −∞ is neutral for `max`. -/
theorem max_negInf (y : EReal) : max (Ideal.ofBits .f32 0xFF800000#32) y = y := by
  simp [Ideal.ofBits, Ideal.ieee]

end Cert.Mlp

end
-- ==== Proof.LibRows.lean ====
/-
  Rows of a matrix at the ideal values: the two "keep the axis" layout steps a row reduction is followed by, and
  the row reductions themselves read at a row.

  A reduction along the columns of an [a, b] matrix leaves a vector of length a. To use it against the matrix again a
  program views it as an [a, 1] column and broadcasts the column along the rows to [a, b]. Read at (i, j) the result is
  entry i of the vector, whatever j is (`column_apply`, `spread_apply`).

  The reductions: the maximum of row i folded from the accumulator's value over the row's entries
  (`rowMaximum_apply`), and the sum of row i (`rowSum_apply`), both with the row's entries written (i, k).
-/
import Idealize.ShloMosaic.PureOps.Ideal.Laws
import Idealize.ShloMosaic.Lib.ValueIdx
import Idealize.ShloMosaic.Lib.Pipeline.Value

noncomputable section

namespace Cert.LibRows

open Idealize.ShloMosaic Idealize.ShloMosaic.ValueIdx

variable {α : Type}

/-- A vector of length `a` viewed as an [a, 1] column reads entry `i` at (i, 0). -/
theorem column_apply {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_one, Shape.rowMajor_val_two]
    show i.val = i.val * 1 + u.val
    rw [hu, Nat.mul_one, Nat.add_zero])

/-- An [a, 1] column broadcast along the rows to [a, b] reads the column's entry `i` at (i, j). -/
theorem spread_apply {a b : ℕ} (v : (⟨2, ![a, 1]⟩ : Shape).Idx → α) (h : (⟨2, ![a, 1]⟩ : Shape).Broadcasts ⟨2, ![a, b]⟩)
    (i : Fin a) (j : Fin b) (hb : a ≠ 1) : broadcastTo ⟨2, ![a, b]⟩ v h (ix2 i j) = v (ix2 i (0 : Fin 1)) :=
  broadcastTo_apply v h _ _ fun c => match c with
    | ⟨0, _⟩ => by
        show i.val = if a = 1 then 0 else i.val
        rw [if_neg hb]
    | ⟨1, _⟩ => rfl

/-- The source index over row `i` with `k` inserted on the column axis is (i, k). -/
theorem lift_row {a b : ℕ} (h : Shape.Reduces ⟨2, ![a, b]⟩ [1] ⟨1, ![a]⟩) (i : Fin a) (k : Fin b) :
    h.lift (ix1 i) k = ix2 i k :=
  funext fun c => Fin.ext (by match c with | ⟨0, _⟩ => rfl | ⟨1, _⟩ => rfl)

/-- The maximum along the columns, at row `i`: the fold of `max` from the accumulator's value over the row's entries. -/
theorem rowMaximum_apply {a b : ℕ} (src : FVec Ideal ⟨2, ![a, b]⟩ .f32) (acc : BitVec 32)
    (h : Shape.Reduces ⟨2, ![a, b]⟩ [1] ⟨1, ![a]⟩) (hφ : FKind.Formats .f32) (hacc : acc = FKind.maximumf.neutral .f32 hφ)
    (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  exact congrArg (Finset.fold max (Ideal.ofBits .f32 acc) · Finset.univ) (funext fun k => congrArg src (lift_row h i k))

/-- The sum along the columns, at row `i`: the sum of the row's entries. -/
theorem rowSum_apply {a b : ℕ} (src : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRows

end
-- ==== Proof.Tile.lean ====
/-
  One 1000-row tile of the kernel's body, read at an entry.

  The body treats its 5000-row block as five tiles of 1000 rows and does the same thing to each: the tile of the input
  times W1 (a matrix product into a zero accumulator), plus b1 along the rows, rectified; times W2, plus b2; then each
  row's maximum is subtracted, and from the result the logarithm of the row's sum of exponentials. `logits` and
  `logSoftmax` name those two halves, and the five values the body stores are all `logSoftmax (logits …)` of their own
  loads: the printed text only groups the operations differently from tile to tile.

  At the ideal values a matrix product into zero is the plain sum of products over the contracted axis, a row maximum is
  the fold of max from −∞ over the row and a row sum the sum over the row, so at (p, q) a tile is
  `logSoftmaxRow (logitRow …) q` of row p of its input: `tile_apply`.
-/
import proofs.«167817_g67276367724819_cont_9to1c4b_547_19_alg».proof.Proof.Gen.KernelIdeal.Skeleton
import proofs.«167817_g67276367724819_cont_9to1c4b_547_19_alg».proof.Proof.Spec
import proofs.«167817_g67276367724819_cont_9to1c4b_547_19_alg».proof.Proof.LibRows
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.ValueIdx Cert.Mlp

/-! ## The two contractions -/

/-- The tile's first product: the left operand's row coordinate is the output's row. -/
theorem first_lhs_row (i : S1000x1024.Idx) (c : dot_S1000x512_S512x1024_S1000x1024_1_0_0_1_n_n.contr.Idx) : (dot_S1000x512_S512x1024_S1000x1024_1_0_0_1_n_n.lhsIdx i c 0).val = (i 0).val := by
  unfold DotDims.lhsIdx
  rw [dif_neg (show ¬(0 : Fin S1000x512.rank) ∈ dot_S1000x512_S512x1024_S1000x1024_1_0_0_1_n_n.lhsBatch by decide), dif_pos (show (0 : Fin S1000x512.rank) ∈ dot_S1000x512_S512x1024_S1000x1024_1_0_0_1_n_n.lhsNonContracting by decide)]
  rfl

/-- The tile's first product: the right operand's column coordinate is the output's column. -/
theorem first_rhs_col (i : S1000x1024.Idx) (c : dot_S1000x512_S512x1024_S1000x1024_1_0_0_1_n_n.contr.Idx) : (dot_S1000x512_S512x1024_S1000x1024_1_0_0_1_n_n.rhsIdx i c 1).val = (i 1).val := by
  unfold DotDims.rhsIdx
  rw [dif_neg (show ¬(1 : Fin S512x1024.rank) ∈ dot_S1000x512_S512x1024_S1000x1024_1_0_0_1_n_n.rhsBatch by decide), dif_pos (show (1 : Fin S512x1024.rank) ∈ dot_S1000x512_S512x1024_S1000x1024_1_0_0_1_n_n.rhsNonContracting by decide)]
  rfl

/-- The tile's first product: the sum over the contraction's own index is the sum over j of left (p, j) times right (j, k). -/
theorem first_sum {φ₁ φ₂ : FTy} (x : FVec Ideal S1000x512 φ₁) (w : FVec Ideal S512x1024 φ₂) (p : Fin 1000) (k : Fin 1024) :
    ∑ c : dot_S1000x512_S512x1024_S1000x1024_1_0_0_1_n_n.contr.Idx, x (dot_S1000x512_S512x1024_S1000x1024_1_0_0_1_n_n.lhsIdx (ix2 p k) c) * w (dot_S1000x512_S512x1024_S1000x1024_1_0_0_1_n_n.rhsIdx (ix2 p k) c)
      = ∑ j : Fin 512, x (ix2 p j) * w (ix2 j k) := by
  rw [← Equiv.sum_comp (contrEquiv1 dot_S1000x512_S512x1024_S1000x1024_1_0_0_1_n_n 512 rfl rfl).symm]
  refine Finset.sum_congr rfl fun j _ => ?_
  have hj := contrEquiv1_symm_val dot_S1000x512_S512x1024_S1000x1024_1_0_0_1_n_n 512 rfl rfl j
  have el : dot_S1000x512_S512x1024_S1000x1024_1_0_0_1_n_n.lhsIdx (ix2 p k) ((contrEquiv1 dot_S1000x512_S512x1024_S1000x1024_1_0_0_1_n_n 512 rfl rfl).symm j) = ix2 p j :=
    funext fun a => Fin.ext (by
      match a with
      | ⟨0, _⟩ => exact first_lhs_row _ _
      | ⟨1, _⟩ => exact (DotDims.lhsIdx_val_of_single (d := dot_S1000x512_S512x1024_S1000x1024_1_0_0_1_n_n) (cl := 1) rfl _ _).trans hj)
  have er : dot_S1000x512_S512x1024_S1000x1024_1_0_0_1_n_n.rhsIdx (ix2 p k) ((contrEquiv1 dot_S1000x512_S512x1024_S1000x1024_1_0_0_1_n_n 512 rfl rfl).symm j) = ix2 j k :=
    funext fun a => Fin.ext (by
      match a with
      | ⟨0, _⟩ => exact (DotDims.rhsIdx_val_of_single (d := dot_S1000x512_S512x1024_S1000x1024_1_0_0_1_n_n) (cr := 0) rfl _ _).trans hj
      | ⟨1, _⟩ => exact first_rhs_col _ _)
  rw [el, er]

/-- The tile's second product: the left operand's row coordinate is the output's row. -/
theorem second_lhs_row (i : S1000x256.Idx) (c : dot_S1000x1024_S1024x256_S1000x256_1_0_0_1_n_n.contr.Idx) : (dot_S1000x1024_S1024x256_S1000x256_1_0_0_1_n_n.lhsIdx i c 0).val = (i 0).val := by
  unfold DotDims.lhsIdx
  rw [dif_neg (show ¬(0 : Fin S1000x1024.rank) ∈ dot_S1000x1024_S1024x256_S1000x256_1_0_0_1_n_n.lhsBatch by decide), dif_pos (show (0 : Fin S1000x1024.rank) ∈ dot_S1000x1024_S1024x256_S1000x256_1_0_0_1_n_n.lhsNonContracting by decide)]
  rfl

/-- The tile's second product: the right operand's column coordinate is the output's column. -/
theorem second_rhs_col (i : S1000x256.Idx) (c : dot_S1000x1024_S1024x256_S1000x256_1_0_0_1_n_n.contr.Idx) : (dot_S1000x1024_S1024x256_S1000x256_1_0_0_1_n_n.rhsIdx i c 1).val = (i 1).val := by
  unfold DotDims.rhsIdx
  rw [dif_neg (show ¬(1 : Fin S1024x256.rank) ∈ dot_S1000x1024_S1024x256_S1000x256_1_0_0_1_n_n.rhsBatch by decide), dif_pos (show (1 : Fin S1024x256.rank) ∈ dot_S1000x1024_S1024x256_S1000x256_1_0_0_1_n_n.rhsNonContracting by decide)]
  rfl

/-- The tile's second product: the sum over the contraction's own index is the sum over j of left (p, j) times right (j, k). -/
theorem second_sum {φ₁ φ₂ : FTy} (x : FVec Ideal S1000x1024 φ₁) (w : FVec Ideal S1024x256 φ₂) (p : Fin 1000) (k : Fin 256) :
    ∑ c : dot_S1000x1024_S1024x256_S1000x256_1_0_0_1_n_n.contr.Idx, x (dot_S1000x1024_S1024x256_S1000x256_1_0_0_1_n_n.lhsIdx (ix2 p k) c) * w (dot_S1000x1024_S1024x256_S1000x256_1_0_0_1_n_n.rhsIdx (ix2 p k) c)
      = ∑ j : Fin 1024, x (ix2 p j) * w (ix2 j k) := by
  rw [← Equiv.sum_comp (contrEquiv1 dot_S1000x1024_S1024x256_S1000x256_1_0_0_1_n_n 1024 rfl rfl).symm]
  refine Finset.sum_congr rfl fun j _ => ?_
  have hj := contrEquiv1_symm_val dot_S1000x1024_S1024x256_S1000x256_1_0_0_1_n_n 1024 rfl rfl j
  have el : dot_S1000x1024_S1024x256_S1000x256_1_0_0_1_n_n.lhsIdx (ix2 p k) ((contrEquiv1 dot_S1000x1024_S1024x256_S1000x256_1_0_0_1_n_n 1024 rfl rfl).symm j) = ix2 p j :=
    funext fun a => Fin.ext (by
      match a with
      | ⟨0, _⟩ => exact second_lhs_row _ _
      | ⟨1, _⟩ => exact (DotDims.lhsIdx_val_of_single (d := dot_S1000x1024_S1024x256_S1000x256_1_0_0_1_n_n) (cl := 1) rfl _ _).trans hj)
  have er : dot_S1000x1024_S1024x256_S1000x256_1_0_0_1_n_n.rhsIdx (ix2 p k) ((contrEquiv1 dot_S1000x1024_S1024x256_S1000x256_1_0_0_1_n_n 1024 rfl rfl).symm j) = ix2 j k :=
    funext fun a => Fin.ext (by
      match a with
      | ⟨0, _⟩ => exact (DotDims.rhsIdx_val_of_single (d := dot_S1000x1024_S1024x256_S1000x256_1_0_0_1_n_n) (cr := 0) rfl _ _).trans hj
      | ⟨1, _⟩ => exact second_rhs_col _ _)
  rw [el, er]

/-! ## A bias row along the rows -/

/-- A [1, b] row broadcast along the rows to [a, b] reads the row's entry `j` at (i, j). -/
theorem rowSpread_apply {α : Type} {a b : ℕ} (v : (⟨2, ![1, b]⟩ : Shape).Idx → α) (h : (⟨2, ![1, b]⟩ : Shape).Broadcasts ⟨2, ![a, b]⟩)
    (i : Fin a) (j : Fin b) (hb : b ≠ 1) : broadcastTo ⟨2, ![a, b]⟩ v h (ix2 i j) = v (ix2 (0 : Fin 1) j) :=
  broadcastTo_apply v h _ _ fun c => match c with
    | ⟨0, _⟩ => rfl
    | ⟨1, _⟩ => by
        show j.val = if b = 1 then 0 else j.val
        rw [if_neg hb]

/-! ## The tile's two halves -/

/-- The logits of a tile: both layers. -/
def logits (x : FVec Ideal S1000x512 .f32) (w1 : FVec Ideal S512x1024 .bf16) (b1 : FVec Ideal S1x1024 .f32)
    (w2 : FVec Ideal S1024x256 .bf16) (b2 : FVec Ideal S1x256 .f32) : FVec Ideal S1000x256 .f32 :=
  addf (matmul dot_S1000x1024_S1024x256_S1000x256_1_0_0_1_n_n none
      (maximumf (addf (matmul dot_S1000x512_S512x1024_S1000x1024_1_0_0_1_n_n none x (shapeCast S512x1024 w1 shapeCasts_S512x1024_S512x1024) (constant (F := Ideal) S1000x1024 .f32 0x00000000#32))
          (broadcastTo S1000x1024 (shapeCast S1x1024 b1 shapeCasts_S1x1024_S1x1024) broadcasts_S1x1024_S1000x1024))
        (broadcast S1000x1024 (Scalar.ofBits (F := Ideal) .f32 0x00000000#32)))
      (shapeCast S1024x256 w2 shapeCasts_S1024x256_S1024x256) (constant (F := Ideal) S1000x256 .f32 0x00000000#32))
    (broadcastTo S1000x256 (shapeCast S1x256 b2 shapeCasts_S1x256_S1x256) broadcasts_S1x256_S1000x256)

/-- A tile minus its rows' maxima. -/
def shift (z : FVec Ideal S1000x256 .f32) : FVec Ideal S1000x256 .f32 :=
  subf z (broadcastTo S1000x256 (shapeCast S1000x1 (multiReduction .maximumf [1] S1000 z 0xFF800000#32 reduces_S1000x256_S1000 (.inl rfl) rfl) shapeCasts_S1000_S1000x1) broadcasts_S1000x1_S1000x256)

/-- The logarithm of the softmax of a tile's rows. -/
def logSoftmax (z : FVec Ideal S1000x256 .f32) : FVec Ideal S1000x256 .f32 :=
  subf (shift z) (broadcastTo S1000x256 (log (shapeCast S1000x1 (multiReduction .add [1] S1000 (exp (shift z)) 0x00000000#32 reduces_S1000x256_S1000 (.inl rfl) rfl) shapeCasts_S1000_S1000x1)) broadcasts_S1000x1_S1000x256)

/-! ## The five stored values are that one function of their loads -/

theorem stored0 (x : Vec Ideal S1000x512 .f32) (w1 : Vec Ideal S512x1024 .bf16) (b1 : Vec Ideal S1x1024 .f32) (w2 : Vec Ideal S1024x256 .bf16) (b2 : Vec Ideal S1x256 .f32) :
    k0_pay3 x w1 b1 w2 b2 = logSoftmax (logits x w1 b1 w2 b2) := rfl

theorem stored1 (x : Vec Ideal S1000x512 .f32) (w1 : Vec Ideal S512x1024 .bf16) (b1 : Vec Ideal S1x1024 .f32) (w2 : Vec Ideal S1024x256 .bf16) (b2 : Vec Ideal S1x256 .f32) :
    k0_pay6 (k0_pay4 x w1) (k0_pay5 b1) w2 b2 = logSoftmax (logits x w1 b1 w2 b2) := rfl

theorem stored2 (x : Vec Ideal S1000x512 .f32) (w1 : Vec Ideal S512x1024 .bf16) (b1 : Vec Ideal S1x1024 .f32) (w2 : Vec Ideal S1024x256 .bf16) (b2 : Vec Ideal S1x256 .f32) :
    k0_pay8 (k0_pay7 x w1 b1 w2) b2 = logSoftmax (logits x w1 b1 w2 b2) := rfl

theorem stored3 (x : Vec Ideal S1000x512 .f32) (w1 : Vec Ideal S512x1024 .bf16) (b1 : Vec Ideal S1x1024 .f32) (w2 : Vec Ideal S1024x256 .bf16) (b2 : Vec Ideal S1x256 .f32) :
    k0_pay1 (k0_pay9 x w1 b1 w2 b2) (k0_pay10 x w1 b1 w2 b2) = logSoftmax (logits x w1 b1 w2 b2) := rfl

theorem stored4 (x : Vec Ideal S1000x512 .f32) (w1 : Vec Ideal S512x1024 .bf16) (b1 : Vec Ideal S1x1024 .f32) (w2 : Vec Ideal S1024x256 .bf16) (b2 : Vec Ideal S1x256 .f32) :
    k0_pay2 x w1 b1 w2 b2 = logSoftmax (logits x w1 b1 w2 b2) := rfl

/-! ## Read at an entry -/

/-- Entry (p, q) of the logits is the logit q of row p. -/
theorem logits_apply (x : FVec Ideal S1000x512 .f32) (w1 : FVec Ideal S512x1024 .bf16) (b1 : FVec Ideal S1x1024 .f32)
    (w2 : FVec Ideal S1024x256 .bf16) (b2 : FVec Ideal S1x256 .f32) (p : Fin 1000) (q : Fin 256) :
    logits x w1 b1 w2 b2 (ix2 p q)
      = logitRow (fun j : Fin 512 => x (ix2 p j)) (fun (j : Fin 512) (k : Fin 1024) => w1 (ix2 j k)) (fun k : Fin 1024 => b1 (ix2 (0 : Fin 1) k))
          (fun (k : Fin 1024) (q : Fin 256) => w2 (ix2 k q)) (fun q : Fin 256 => b2 (ix2 (0 : Fin 1) q)) q := by
  unfold logits logitRow hiddenRow
  rw [shapeCast_self, shapeCast_self, shapeCast_self, shapeCast_self]
  refine (addf_apply _ _ _).trans ?_
  refine congrArg₂ (· + ·) ?_ (rowSpread_apply b2 _ p q (by decide))
  refine (Ideal.matmul_constant_zero_apply dot_S1000x1024_S1024x256_S1000x256_1_0_0_1_n_n none _ w2 (ix2 p q)).trans ?_
  refine (second_sum _ w2 p q).trans ?_
  refine Finset.sum_congr rfl fun k _ => congrArg (· * w2 (ix2 k q)) ?_
  refine (maximumf_apply _ _ _).trans ?_
  refine congrArg₂ max ?_ rfl
  refine (addf_apply _ _ _).trans ?_
  refine congrArg₂ (· + ·) ?_ (rowSpread_apply b1 _ p k (by decide))
  exact (Ideal.matmul_constant_zero_apply dot_S1000x512_S512x1024_S1000x1024_1_0_0_1_n_n none x w1 (ix2 p k)).trans (first_sum x w1 p k)

/-- Entry (p, q) of a tile minus its rows' maxima. -/
theorem shift_apply (z : FVec Ideal S1000x256 .f32) (p : Fin 1000) (q : Fin 256) :
    shift z (ix2 p q) = z (ix2 p q) - rowMax (fun q' : Fin 256 => z (ix2 p q')) := by
  unfold shift
  refine (subf_apply _ _ _).trans ?_
  refine congrArg (z (ix2 p q) - ·) ?_
  refine (Cert.LibRows.spread_apply _ _ p q (by decide)).trans ?_
  refine (Cert.LibRows.column_apply _ _ p (0 : Fin 1)).trans ?_
  exact Cert.LibRows.rowMaximum_apply z _ _ _ _ p

/-- Entry (p, q) of the log-softmax of a tile is the log-softmax of row p at q. -/
theorem logSoftmax_apply (z : FVec Ideal S1000x256 .f32) (p : Fin 1000) (q : Fin 256) :
    logSoftmax z (ix2 p q) = logSoftmaxRow (fun q' : Fin 256 => z (ix2 p q')) q := by
  unfold logSoftmax logSoftmaxRow
  refine (subf_apply _ _ _).trans ?_
  refine congrArg₂ (· - ·) (shift_apply z p q) ?_
  refine (Cert.LibRows.spread_apply _ _ p q (by decide)).trans ?_
  show Ideal.log (shapeCast S1000x1 _ shapeCasts_S1000_S1000x1 (ix2 p (0 : Fin 1))) = _
  refine congrArg Ideal.log ?_
  refine (Cert.LibRows.column_apply _ _ p (0 : Fin 1)).trans ?_
  refine (Cert.LibRows.rowSum_apply _ _ _ _ _ p).trans ?_
  exact Finset.sum_congr rfl fun q' _ => congrArg Ideal.exp (shift_apply z p q')

/-- A tile at (p, q): row p of its input through both layers, then the log-softmax of that row's logits at q. -/
theorem tile_apply (x : FVec Ideal S1000x512 .f32) (w1 : FVec Ideal S512x1024 .bf16) (b1 : FVec Ideal S1x1024 .f32)
    (w2 : FVec Ideal S1024x256 .bf16) (b2 : FVec Ideal S1x256 .f32) (p : Fin 1000) (q : Fin 256) :
    logSoftmax (logits x w1 b1 w2 b2) (ix2 p q)
      = logSoftmaxRow (logitRow (fun j : Fin 512 => x (ix2 p j)) (fun (j : Fin 512) (k : Fin 1024) => w1 (ix2 j k)) (fun k : Fin 1024 => b1 (ix2 (0 : Fin 1) k))
          (fun (k : Fin 1024) (q : Fin 256) => w2 (ix2 k q)) (fun q : Fin 256 => b2 (ix2 (0 : Fin 1) q))) q := by
  refine (logSoftmax_apply _ p q).trans ?_
  exact congrArg (logSoftmaxRow · q) (funext fun q' => logits_apply x w1 b1 w2 b2 p q')

end Cert.KernelIdeal.Tile

end
-- ==== Proof.Block.lean ====
/-
  What the body leaves in its output block, as one function of the five input blocks.

  The body stores five pieces, rows 1000 s … 1000 s + 999 of the 5000-row output block for s = 0 … 4, and piece s is the
  tile function of rows 1000 s … 1000 s + 999 of the input block and of the whole weight and bias blocks. A tile at
  (p, q) depends only on row p of its input, so piece s at (p, q) is `blockFn` at row 1000 s + p, column q, where
  `blockFn` at (y, q) is the log-softmax at q of the logits of row y of the input block. The pieces tile the block, so the
  block holds `blockFn`.
-/
import proofs.«167817_g67276367724819_cont_9to1c4b_547_19_alg».proof.Proof.Gen.KernelIdeal.Frame
import proofs.«167817_g67276367724819_cont_9to1c4b_547_19_alg».proof.Proof.Tile
import Idealize.ShloMosaic.Lib.Pipeline.Value

set_option maxRecDepth 16384

noncomputable section

namespace Cert.KernelIdeal.Block

open Cert.KernelIdeal Cert.KernelIdeal.Gen Idealize.ShloMosaic Idealize.ShloMosaic.ValueIdx Cert.Mlp

/-- The output block at (y, q): the log-softmax at q of the logits of row y of the input block. -/
def blockFn (x0 : Vec Ideal S5000x512 .f32) (x1 : Vec Ideal S512x1024 .bf16) (x2 : Vec Ideal S1x1024 .f32)
    (x3 : Vec Ideal S1024x256 .bf16) (x4 : Vec Ideal S1x256 .f32) : Vec Ideal S5000x256 .f32 :=
  fun y => logSoftmaxRow
    (logitRow (fun j : Fin 512 => x0 (ix2 (y 0) j)) (fun (j : Fin 512) (k : Fin 1024) => x1 (ix2 j k)) (fun k : Fin 1024 => x2 (ix2 (0 : Fin 1) k))
      (fun (k : Fin 1024) (q : Fin 256) => x3 (ix2 k q)) (fun q : Fin 256 => x4 (ix2 (0 : Fin 1) q)))
    (y 1)

theorem zeroOffsets : (![0, 0] : Fin 2 → Nat) = fun _ => 0 := funext fun a => by fin_cases a <;> rfl

/-- The tile of rows o … o + 999 of the input block, at (p, q), is the block function at row o + p, column q. -/
theorem piece_eq (o : Nat) (inbIn : ∀ a, (![o, 0] : Fin 2 → Nat) a + S1000x512.size a ≤ S5000x512.size a)
    (inbOut : ∀ a, (![o, 0] : Fin 2 → Nat) a + S1000x256.size a ≤ S5000x256.size a)
    (x0 : Vec Ideal S5000x512 .f32) (x1 : Vec Ideal S512x1024 .bf16) (x2 : Vec Ideal S1x1024 .f32)
    (x3 : Vec Ideal S1024x256 .bf16) (x4 : Vec Ideal S1x256 .f32) (x : S1000x256.Idx) :
    Tile.logSoftmax (Tile.logits (View.ld x0 (Rect.unit (s := S5000x512) ![o, 0] S1000x512.size inbIn)) (View.ld x1 r0_1) (View.ld x2 r0_2)
        (View.ld x3 r0_3) (View.ld x4 r0_4)) x
      = blockFn x0 x1 x2 x3 x4 ((Rect.unit (s := S5000x256) ![o, 0] S1000x256.size inbOut).emb x) := by
  obtain ⟨p, q, rfl⟩ : ∃ (p : Fin 1000) (q : Fin 256), x = ix2 p q := ⟨x 0, x 1, eq_ix2 x⟩
  refine (Tile.tile_apply _ _ _ _ _ p q).trans ?_
  rw [View.ld_unit_zero (S := S512x1024) zeroOffsets, View.ld_unit_zero (S := S1x1024) zeroOffsets,
    View.ld_unit_zero (S := S1024x256) zeroOffsets, View.ld_unit_zero (S := S1x256) zeroOffsets]
  unfold blockFn
  have hcol : ((Rect.unit (s := S5000x256) ![o, 0] S1000x256.size inbOut).emb (ix2 p q)) 1 = q :=
    Fin.ext (by show 0 + 1 * q.val = q.val; omega)
  have hrow : (fun j : Fin 512 => View.ld x0 (Rect.unit (s := S5000x512) ![o, 0] S1000x512.size inbIn) (ix2 p j))
      = fun j : Fin 512 => x0 (ix2 (((Rect.unit (s := S5000x256) ![o, 0] S1000x256.size inbOut).emb (ix2 p q)) 0) j) :=
    funext fun j => congrArg x0 (funext fun a => Fin.ext (by
      match a with
      | ⟨0, _⟩ => rfl
      | ⟨1, _⟩ => show 0 + 1 * j.val = j.val; omega))
  rw [hcol, hrow]

/-- The output block after the body is the block function of the input blocks. -/
theorem out_eq (x0 : Vec Ideal S5000x512 .f32) (x1 : Vec Ideal S512x1024 .bf16) (x2 : Vec Ideal S1x1024 .f32)
    (x3 : Vec Ideal S1024x256 .bf16) (x4 : Vec Ideal S1x256 .f32) :
    out0_5 x0 x1 x2 x3 x4 = blockFn x0 x1 x2 x3 x4 := by
  funext y
  unfold out0_5
  refine View.canon_apply_of_pieces (blockFn x0 x1 x2 x3 x4) _ ?_ y (cover0_5 _ _ _ _ _ y)
  intro pc hpc x
  simp only [List.mem_cons, List.not_mem_nil, or_false] at hpc
  rcases hpc with rfl | rfl | rfl | rfl | rfl
  · exact (congrFun (Tile.stored4 _ _ _ _ _) x).trans (piece_eq 4000 inb_S5000x512_S1000x512_4000_0 inb_S5000x256_S1000x256_4000_0 x0 x1 x2 x3 x4 x)
  · exact (congrFun (Tile.stored3 _ _ _ _ _) x).trans (piece_eq 3000 inb_S5000x512_S1000x512_3000_0 inb_S5000x256_S1000x256_3000_0 x0 x1 x2 x3 x4 x)
  · exact (congrFun (Tile.stored2 _ _ _ _ _) x).trans (piece_eq 2000 inb_S5000x512_S1000x512_2000_0 inb_S5000x256_S1000x256_2000_0 x0 x1 x2 x3 x4 x)
  · exact (congrFun (Tile.stored1 _ _ _ _ _) x).trans (piece_eq 1000 inb_S5000x512_S1000x512_1000_0 inb_S5000x256_S1000x256_1000_0 x0 x1 x2 x3 x4 x)
  · exact (congrFun (Tile.stored0 _ _ _ _ _) x).trans (piece_eq 0 inb_S5000x512_S1000x512_0_0 inb_S5000x256_S1000x256_0_0 x0 x1 x2 x3 x4 x)

end Cert.KernelIdeal.Block

end
-- ==== Proof.KernelArray.lean ====
/-
  The kernel's result array: it is the specification's `G` of the argument arrays.

  The grid has twenty points; point t stages rows 5000 t … 5000 t + 4999 of x (window 0) and of the result (window 5),
  and the whole of W1, b1, W2, b2 as the region finds them (windows 1 to 4: W1 and W2 after the change of format to
  bf16, which is the identity at the ideal values, and each bias viewed as a one-row matrix, whose entry (0, j) is the
  bias's entry j). The body leaves `Block.blockFn` of those blocks in the output block (`Block.out_eq`), and
  `blockFn` at row y of block t is `G` at row 5000 t + y: so point t writes back block t of `G` (`flushed_eq`). Row r
  of the array lies in block r / 5000, so the blocks cover the array and it ends holding `G` (`final`, `run`).
-/
import proofs.«167817_g67276367724819_cont_9to1c4b_547_19_alg».proof.Proof.Gen.KernelIdeal.Value
import proofs.«167817_g67276367724819_cont_9to1c4b_547_19_alg».proof.Proof.Block
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx Idealize.ShloMosaic.StableHlo Cert.Mlp

variable (m : (ℓ : Loc nD τ sig) → Buf (Elt Ideal) ℓ) (ρ : Dev nD → PrngReg)

/-- Two rows with equal entries, through equal weights and biases, have equal results. -/
theorem rows_congr {n₀ n₁ n₂ : ℕ} {x x' : Fin n₀ → EReal} {w1 w1' : Fin n₀ → Fin n₁ → EReal} {b1 b1' : Fin n₁ → EReal}
    {w2 w2' : Fin n₁ → Fin n₂ → EReal} {b2 b2' : Fin n₂ → EReal} (hx : x = x') (h1 : w1 = w1') (hb1 : b1 = b1')
    (h2 : w2 = w2') (hb2 : b2 = b2') (q : Fin n₂) :
    logSoftmaxRow (logitRow x w1 b1 w2 b2) q = logSoftmaxRow (logitRow x' w1' b1' w2' b2') q := by
  subst hx h1 hb1 h2 hb2; rfl

/-- A vector of length `b` viewed as a [1, b] matrix reads entry `j` at (0, j). -/
theorem asRow_apply {α : Type} {b : ℕ} (v : (⟨1, ![b]⟩ : Shape).Idx → α) (h : (⟨1, ![b]⟩ : Shape).ShapeCasts ⟨2, ![1, b]⟩)
    (u : Fin 1) (j : Fin b) : shapeCast ⟨2, ![1, b]⟩ v h (ix2 u j) = v (ix1 j) :=
  shapeCast_apply v h _ _ (by
    have hu : u.val = 0 := by omega
    rw [Shape.rowMajor_val_one, Shape.rowMajor_val_two]
    show j.val = u.val * b + j.val
    rw [hu, Nat.zero_mul, Nat.zero_add])

/-! ## The arrays the region finds -/

/-- W1 as the region finds it: the argument with its format changed, which at the ideal values is the argument. -/
theorem V_w1 (c : Dev nD) : (V m c main_v0 : S512x1024.Idx → EReal)
    = (m ((c : Thread nD τ).loc main_arg1) : S512x1024.Idx → EReal) := by
  dsimp only [Gen.V, Gen.hostOps0]; after_results; rfl

/-- W2 as the region finds it: the argument with its format changed, which at the ideal values is the argument. -/
theorem V_w2 (c : Dev nD) : (V m c main_v1 : S1024x256.Idx → EReal)
    = (m ((c : Thread nD τ).loc main_arg3) : S1024x256.Idx → EReal) := by
  dsimp only [Gen.V, Gen.hostOps0]; after_results; rfl

/-- b1 as the region finds it: the argument viewed as a one-row matrix. -/
theorem V_b1 (c : Dev nD) : (V m c main_v2 : S1x1024.Idx → EReal)
    = shapeCast S1x1024 (m ((c : Thread nD τ).loc main_arg2) : S1024.Idx → EReal) shapeCasts_S1024_S1x1024 := by
  dsimp only [Gen.V, Gen.hostOps0]; after_results; rfl

/-- b2 as the region finds it: the argument viewed as a one-row matrix. -/
theorem V_b2 (c : Dev nD) : (V m c main_v3 : S1x256.Idx → EReal)
    = shapeCast S1x256 (m ((c : Thread nD τ).loc main_arg4) : S256.Idx → EReal) shapeCasts_S256_S1x256 := by
  dsimp only [Gen.V, Gen.hostOps0]; after_results; rfl

/-! ## The index maps, decided over the twenty points -/

theorem idx_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_w1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_b1 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_w2 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_b2 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_out : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-! ## Each window's block at a point, read off the argument arrays -/

/-- Row y of x's block at point t is row 5000 t + y of x. -/
theorem xblk_apply (c : Dev nD) (t : Fin cfg0.N) (y : Fin 5000) (j : Fin 512) (r : Fin 100000) (hr : r.val = 5000 * t.val + y.val) :
    (iblk m c 0 t : Vec Ideal S5000x512 .f32) (ix2 y j)
      = (m ((c : Thread nD τ).loc main_arg0) : S100000x512.Idx → EReal) (ix2 r j) := by
  obtain ⟨e0, e1⟩ := idx_x t
  unfold iblk
  rw [View.read_apply]
  show V m c main_arg0 _ = _
  rw [V_main_arg0]
  refine congrArg _ (funext fun a => Fin.ext ?_)
  match a with
  | ⟨0, _⟩ => show win0_0.index t (0 : Fin 2) * 5000 + 1 * y.val = r.val; rw [e0, hr]; omega
  | ⟨1, _⟩ => show win0_0.index t (1 : Fin 2) * 512 + 1 * j.val = j.val; rw [e1]; omega

/-- W1's block at any point is W1. -/
theorem w1blk_apply (c : Dev nD) (t : Fin cfg0.N) (j : Fin 512) (k : Fin 1024) :
    (iblk m c 1 t : Vec Ideal S512x1024 .bf16) (ix2 j k)
      = (m ((c : Thread nD τ).loc main_arg1) : S512x1024.Idx → EReal) (ix2 j k) := by
  obtain ⟨e0, e1⟩ := idx_w1 t
  unfold iblk
  rw [View.read_apply]
  show V m c main_v0 _ = _
  rw [V_w1]
  refine congrArg _ (funext fun a => Fin.ext ?_)
  match a with
  | ⟨0, _⟩ => show win0_1.index t (0 : Fin 2) * 512 + 1 * j.val = j.val; rw [e0]; omega
  | ⟨1, _⟩ => show win0_1.index t (1 : Fin 2) * 1024 + 1 * k.val = k.val; rw [e1]; omega

/-- W2's block at any point is W2. -/
theorem w2blk_apply (c : Dev nD) (t : Fin cfg0.N) (k : Fin 1024) (q : Fin 256) :
    (iblk m c 3 t : Vec Ideal S1024x256 .bf16) (ix2 k q)
      = (m ((c : Thread nD τ).loc main_arg3) : S1024x256.Idx → EReal) (ix2 k q) := by
  obtain ⟨e0, e1⟩ := idx_w2 t
  unfold iblk
  rw [View.read_apply]
  show V m c main_v1 _ = _
  rw [V_w2]
  refine congrArg _ (funext fun a => Fin.ext ?_)
  match a with
  | ⟨0, _⟩ => show win0_3.index t (0 : Fin 2) * 1024 + 1 * k.val = k.val; rw [e0]; omega
  | ⟨1, _⟩ => show win0_3.index t (1 : Fin 2) * 256 + 1 * q.val = q.val; rw [e1]; omega

/-- b1's block at any point, at (0, k), is b1 at k. -/
theorem b1blk_apply (c : Dev nD) (t : Fin cfg0.N) (k : Fin 1024) :
    (iblk m c 2 t : Vec Ideal S1x1024 .f32) (ix2 (0 : Fin 1) k)
      = (m ((c : Thread nD τ).loc main_arg2) : S1024.Idx → EReal) (ix1 k) := by
  obtain ⟨e0, e1⟩ := idx_b1 t
  unfold iblk
  rw [View.read_apply]
  show V m c main_v2 _ = _
  rw [V_b1]
  refine Eq.trans (congrArg _ (funext fun a => Fin.ext ?_)) (asRow_apply _ shapeCasts_S1024_S1x1024 (0 : Fin 1) k)
  match a with
  | ⟨0, _⟩ => show win0_2.index t (0 : Fin 2) * 1 + 1 * 0 = 0; rw [e0]
  | ⟨1, _⟩ => show win0_2.index t (1 : Fin 2) * 1024 + 1 * k.val = k.val; rw [e1]; omega

/-- b2's block at any point, at (0, q), is b2 at q. -/
theorem b2blk_apply (c : Dev nD) (t : Fin cfg0.N) (q : Fin 256) :
    (iblk m c 4 t : Vec Ideal S1x256 .f32) (ix2 (0 : Fin 1) q)
      = (m ((c : Thread nD τ).loc main_arg4) : S256.Idx → EReal) (ix1 q) := by
  obtain ⟨e0, e1⟩ := idx_b2 t
  unfold iblk
  rw [View.read_apply]
  show V m c main_v3 _ = _
  rw [V_b2]
  refine Eq.trans (congrArg _ (funext fun a => Fin.ext ?_)) (asRow_apply _ shapeCasts_S256_S1x256 (0 : Fin 1) q)
  match a with
  | ⟨0, _⟩ => show win0_4.index t (0 : Fin 2) * 1 + 1 * 0 = 0; rw [e0]
  | ⟨1, _⟩ => show win0_4.index t (1 : Fin 2) * 256 + 1 * q.val = q.val; rw [e1]; omega

/-! ## Block t of the result is block t of `G` -/

/-- The result array the specification names, of the argument arrays as launched. -/
abbrev spec (c : Dev nD) : S100000x256.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The block function of the blocks at point t, at row y, is `G` at row 5000 t + y. -/
theorem block_at (c : Dev nD) (t : Fin cfg0.N) (y : Fin 5000) (q : Fin 256) (r : Fin 100000) (hr : r.val = 5000 * t.val + y.val) :
    Block.blockFn (iblk m c 0 t) (iblk m c 1 t) (iblk m c 2 t) (iblk m c 3 t) (iblk m c 4 t) (ix2 y q) = spec m c (ix2 r q) :=
  rows_congr (funext fun j => xblk_apply m c t y j r hr) (funext fun j => funext fun k => w1blk_apply m c t j k)
    (funext fun k => b1blk_apply m c t k) (funext fun k => funext fun q' => w2blk_apply m c t k q')
    (funext fun q' => b2blk_apply m c t q') q

/-- What point t writes back is block t of `G`. -/
theorem flushed_eq (c : Dev nD) (t : Fin cfg0.N) :
    (dats m 0 c).flushed 5 t = ((cfg0.win 5).blk t).view.read (Elt Ideal) (spec m c) := by
  rw [Value.flushed5 m c t, Block.out_eq (iblk m c 0 t) (iblk m c 1 t) (iblk m c 2 t) (iblk m c 3 t) (iblk m c 4 t)]
  obtain ⟨e0, e1⟩ := idx_out t
  have hN : cfg0.N = 20 := N_0
  have ht : t.val < 20 := hN ▸ t.isLt
  funext y
  have hy0 : (y 0).val < 5000 := (y 0).isLt
  have hy1 : (y 1).val < 256 := (y 1).isLt
  show Block.blockFn (iblk m c 0 t) (iblk m c 1 t) (iblk m c 2 t) (iblk m c 3 t) (iblk m c 4 t) y
    = spec m c (((cfg0.win 5).blk t).view.emb y)
  have hemb : ((cfg0.win 5).blk t).view.emb y
      = ix2 (⟨5000 * t.val + (y 0).val, by omega⟩ : Fin 100000) (⟨(y 1).val, hy1⟩ : Fin 256) :=
    funext fun a => Fin.ext (by
      match a with
      | ⟨0, _⟩ => show win0_5.index t (0 : Fin 2) * 5000 + 1 * (y 0).val = 5000 * t.val + (y 0).val; rw [e0]; omega
      | ⟨1, _⟩ => show win0_5.index t (1 : Fin 2) * 256 + 1 * (y 1).val = (y 1).val; rw [e1]; omega)
  rw [hemb]
  exact block_at m c t ⟨(y 0).val, hy0⟩ ⟨(y 1).val, hy1⟩ _ rfl

/-! ## The blocks cover the array -/

/-- An index of the array is in point t's block iff each coordinate is in the block's range on its axis. -/
theorem mem_blk (t : Fin cfg0.N) (i : S100000x256.Idx) :
    i ∈ ((cfg0.win 5).blk t).view.set
      ↔ ∀ a : Fin 2, win0_5.index t a * S5000x256.size a ≤ (i a).val ∧ (i a).val < win0_5.index t a * S5000x256.size a + S5000x256.size a := by
  show i ∈ ((View.whole main_v4).slice (win0_5.rect t)).set ↔ _
  rw [View.set_slice_whole, Rect.mem_set_unit]
  exact Iff.rfl

/-- Row r lies in the block of point r / 5000. -/
theorem covered (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  have hN : cfg0.N = 20 := N_0
  have hlt : (i 0).val / 5000 < cfg0.N := by rw [hN]; omega
  refine ⟨⟨(i 0).val / 5000, hlt⟩, flush0_5 _, ?_⟩
  obtain ⟨e0, e1⟩ := idx_out ⟨(i 0).val / 5000, hlt⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hlt⟩ (1 : Fin 2) * 256 ≤ (i 1).val
      ∧ (i 1).val < win0_5.index ⟨(i 0).val / 5000, hlt⟩ (1 : Fin 2) * 256 + 256
    rw [e1]; omega

/-- The result array after the run is `G` of the argument arrays. -/
theorem final (c : Dev nD) : (dats m 0 c).arrAt 5 cfg0.N = spec m c :=
  (dats m 0 c).arrAt_eq_of_cover 5 (spec m c) (fun t _ => flushed_eq m c t) covered

/-- The kernel's run: it terminates with the result array at `G` of the argument arrays, the arguments unchanged. -/
theorem run : θ_run defs (onTc (τ := τ) (main (F := Ideal))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefRun.lean ====
/-
  The reference program's run, read back.

  The reference is a straight line of 26 host operations (its two called functions, the rectifier and the log-softmax,
  stand at their call sites): x·W1, b1 broadcast and added, the maximum with 0; ·W2, b2 broadcast and added; then the
  row maxima (a reduce from −∞, and one more maximum with −∞), their subtraction, the exponentials, the row sums (a
  reduce from 0), their logarithm, and the last subtraction. `logits`, `shift` and `logSoftmax` name those three
  stretches as functions of whole arrays, so that the result is `logSoftmax (logits x W1 b1 W2 b2)` and each stretch
  is written once although the program uses the shifted logits twice and the logits four times.

  The line is read back in two stretches (`logits_at`, `logSoftmax_at`), each from arbitrary contents, so that the second
  sees the logits as one array and not as the four copies of their defining term.

  `run`: every weakly fair execution of the program terminates with the result array at that term of the argument
  arrays, the arguments unchanged.
-/
import proofs.«167817_g67276367724819_cont_9to1c4b_547_19_alg».proof.Proof.Gen.ReferenceIdeal
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-- The logits of every row: both layers. -/
def logits (X : FVec F S100000x512 .f32) (W1 : FVec F S512x1024 .f32) (B1 : FVec F S1024 .f32) (W2 : FVec F S1024x256 .f32)
    (B2 : FVec F S256 .f32) : FVec F S100000x256 .f32 :=
  addf (Host.dotGeneral dot_S100000x1024_S1024x256_S100000x256_1_0_0_1_n_n none
      (maximumf (addf (Host.dotGeneral dot_S100000x512_S512x1024_S100000x1024_1_0_0_1_n_n none X W1)
          (broadcastInDim S100000x1024 ![0, 1] bcast_S1x1024_S100000x1024_0_1 (broadcastInDim S1x1024 ![1] bcast_S1024_S1x1024_1 B1)))
        (broadcastInDim S100000x1024 ![] bcast_S_S100000x1024 (constant S_ .f32 0x00000000#32)))
      W2)
    (broadcastInDim S100000x256 ![0, 1] bcast_S1x256_S100000x256_0_1 (broadcastInDim S1x256 ![1] bcast_S256_S1x256_1 B2))

/-- An array minus its rows' maxima. -/
def shift (z : FVec F S100000x256 .f32) : FVec F S100000x256 .f32 :=
  subf z (broadcastInDim S100000x256 ![0, 1] bcast_S100000x1_S100000x256_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x256_S100000_d1 h_S_))))

/-- The logarithm of the softmax of an array's rows. -/
def logSoftmax (z : FVec F S100000x256 .f32) : FVec F S100000x256 .f32 :=
  subf (shift z) (broadcastInDim S100000x256 ![0, 1] bcast_S100000x1_S100000x256_0_1 (Host.log (broadcastInDim S100000x1 ![0] bcast_S100000_S100000x1_0
    (Host.reduceAdd (Host.exp (shift z)) (constant S_ .f32 0x00000000#32) reducesTo_S100000x256_S100000_d1 h_S_))))

/-- The program's 26 operations, in order; a called function's operations stand in its call's place, each written on its
    buffers directly (inside a called function the program names a buffer together with its tensor type; at these
    buffers that is the same operation, which `main_eq` checks). -/
abbrev ops : List (HloOp τ sig (Elt F)) :=
  [ binary main_arg0 main_arg1 main_v0 ((fun l r => Host.dotGeneral dot_S100000x512_S512x1024_S100000x1024_1_0_0_1_n_n none l r) : (⟨S100000x512, .f32⟩ : BufTy).Contents (Elt F) → (⟨S512x1024, .f32⟩ : BufTy).Contents (Elt F) → (⟨S100000x1024, .f32⟩ : BufTy).Contents (Elt F)),
    unary main_arg2 main_v1 (broadcastInDim S1x1024 ![1] bcast_S1024_S1x1024_1 : (⟨S1024, .f32⟩ : BufTy).Contents (Elt F) → (⟨S1x1024, .f32⟩ : BufTy).Contents (Elt F)),
    unary main_v1 main_v2 (broadcastInDim S100000x1024 ![0, 1] bcast_S1x1024_S100000x1024_0_1 : (⟨S1x1024, .f32⟩ : BufTy).Contents (Elt F) → (⟨S100000x1024, .f32⟩ : BufTy).Contents (Elt F)),
    binary main_v0 main_v2 main_v3 (addf : (⟨S100000x1024, .f32⟩ : BufTy).Contents (Elt F) → (⟨S100000x1024, .f32⟩ : BufTy).Contents (Elt F) → (⟨S100000x1024, .f32⟩ : BufTy).Contents (Elt F)),
    nullary main_call0_cst ((constant S_ .f32 0x00000000#32) : (⟨S_, .f32⟩ : BufTy).Contents (Elt F)),
    unary main_call0_cst main_call0_v0 ((broadcastInDim S100000x1024 ![] bcast_S_S100000x1024) : (⟨S_, .f32⟩ : BufTy).Contents (Elt F) → (⟨S100000x1024, .f32⟩ : BufTy).Contents (Elt F)),
    binary main_v3 main_call0_v0 main_v4 (maximumf : (⟨S100000x1024, .f32⟩ : BufTy).Contents (Elt F) → (⟨S100000x1024, .f32⟩ : BufTy).Contents (Elt F) → (⟨S100000x1024, .f32⟩ : BufTy).Contents (Elt F)),
    binary main_v4 main_arg3 main_v5 ((fun l r => Host.dotGeneral dot_S100000x1024_S1024x256_S100000x256_1_0_0_1_n_n none l r) : (⟨S100000x1024, .f32⟩ : BufTy).Contents (Elt F) → (⟨S1024x256, .f32⟩ : BufTy).Contents (Elt F) → (⟨S100000x256, .f32⟩ : BufTy).Contents (Elt F)),
    unary main_arg4 main_v6 (broadcastInDim S1x256 ![1] bcast_S256_S1x256_1 : (⟨S256, .f32⟩ : BufTy).Contents (Elt F) → (⟨S1x256, .f32⟩ : BufTy).Contents (Elt F)),
    unary main_v6 main_v7 (broadcastInDim S100000x256 ![0, 1] bcast_S1x256_S100000x256_0_1 : (⟨S1x256, .f32⟩ : BufTy).Contents (Elt F) → (⟨S100000x256, .f32⟩ : BufTy).Contents (Elt F)),
    binary main_v5 main_v7 main_v8 (addf : (⟨S100000x256, .f32⟩ : BufTy).Contents (Elt F) → (⟨S100000x256, .f32⟩ : BufTy).Contents (Elt F) → (⟨S100000x256, .f32⟩ : BufTy).Contents (Elt F)),
    nullary main_call1_cst ((constant S_ .f32 0xFF800000#32) : (⟨S_, .f32⟩ : BufTy).Contents (Elt F)),
    binary main_v8 main_call1_cst main_call1_v0 ((fun x v => Host.reduce FloatOps.maximumf x v reducesTo_S100000x256_S100000_d1 h_S_) : (⟨S100000x256, .f32⟩ : BufTy).Contents (Elt F) → (⟨S_, .f32⟩ : BufTy).Contents (Elt F) → (⟨S100000, .f32⟩ : BufTy).Contents (Elt F)),
    nullary main_call1_cst_0 ((constant S_ .f32 0xFF800000#32) : (⟨S_, .f32⟩ : BufTy).Contents (Elt F)),
    unary main_call1_cst_0 main_call1_v1 ((broadcastInDim S100000 ![] bcast_S_S100000) : (⟨S_, .f32⟩ : BufTy).Contents (Elt F) → (⟨S100000, .f32⟩ : BufTy).Contents (Elt F)),
    binary main_call1_v1 main_call1_v0 main_call1_v2 (maximumf : (⟨S100000, .f32⟩ : BufTy).Contents (Elt F) → (⟨S100000, .f32⟩ : BufTy).Contents (Elt F) → (⟨S100000, .f32⟩ : BufTy).Contents (Elt F)),
    unary main_call1_v2 main_call1_v3 ((broadcastInDim S100000x1 ![0] bcast_S100000_S100000x1_0) : (⟨S100000, .f32⟩ : BufTy).Contents (Elt F) → (⟨S100000x1, .f32⟩ : BufTy).Contents (Elt F)),
    unary main_call1_v3 main_call1_v4 ((broadcastInDim S100000x256 ![0, 1] bcast_S100000x1_S100000x256_0_1) : (⟨S100000x1, .f32⟩ : BufTy).Contents (Elt F) → (⟨S100000x256, .f32⟩ : BufTy).Contents (Elt F)),
    binary main_v8 main_call1_v4 main_call1_v5 (subf : (⟨S100000x256, .f32⟩ : BufTy).Contents (Elt F) → (⟨S100000x256, .f32⟩ : BufTy).Contents (Elt F) → (⟨S100000x256, .f32⟩ : BufTy).Contents (Elt F)),
    unary main_call1_v5 main_call1_v6 (Host.exp : (⟨S100000x256, .f32⟩ : BufTy).Contents (Elt F) → (⟨S100000x256, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_call1_v7 main_call1_v8 ((broadcastInDim S100000x1 ![0] bcast_S100000_S100000x1_0) : (⟨S100000, .f32⟩ : BufTy).Contents (Elt F) → (⟨S100000x1, .f32⟩ : BufTy).Contents (Elt F)),
    unary main_call1_v8 main_call1_v9 (Host.log : (⟨S100000x1, .f32⟩ : BufTy).Contents (Elt F) → (⟨S100000x1, .f32⟩ : BufTy).Contents (Elt F)),
    unary main_call1_v9 main_call1_v10 ((broadcastInDim S100000x256 ![0, 1] bcast_S100000x1_S100000x256_0_1) : (⟨S100000x1, .f32⟩ : BufTy).Contents (Elt F) → (⟨S100000x256, .f32⟩ : BufTy).Contents (Elt F)),
    binary main_call1_v5 main_call1_v10 main_v9 (subf : (⟨S100000x256, .f32⟩ : BufTy).Contents (Elt F) → (⟨S100000x256, .f32⟩ : BufTy).Contents (Elt F) → (⟨S100000x256, .f32⟩ : BufTy).Contents (Elt F)) ]

attribute [local irreducible] Host.reduce in
/-- The program is that line. Inside its two called functions the program's operations carry the buffers' tensor types and
    transport contents along them; at these buffers the transport is the identity, so each is the operation written
    here. The row reduce is kept folded while this is checked: its body is a fold over all of the operand's entries. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The first eleven operations: both layers, up to the logits in `main_v8`. -/
abbrev opsA : List (HloOp τ sig (Elt F)) :=
  [ binary main_arg0 main_arg1 main_v0 ((fun l r => Host.dotGeneral dot_S100000x512_S512x1024_S100000x1024_1_0_0_1_n_n none l r) : (⟨S100000x512, .f32⟩ : BufTy).Contents (Elt F) → (⟨S512x1024, .f32⟩ : BufTy).Contents (Elt F) → (⟨S100000x1024, .f32⟩ : BufTy).Contents (Elt F)),
    unary main_arg2 main_v1 (broadcastInDim S1x1024 ![1] bcast_S1024_S1x1024_1 : (⟨S1024, .f32⟩ : BufTy).Contents (Elt F) → (⟨S1x1024, .f32⟩ : BufTy).Contents (Elt F)),
    unary main_v1 main_v2 (broadcastInDim S100000x1024 ![0, 1] bcast_S1x1024_S100000x1024_0_1 : (⟨S1x1024, .f32⟩ : BufTy).Contents (Elt F) → (⟨S100000x1024, .f32⟩ : BufTy).Contents (Elt F)),
    binary main_v0 main_v2 main_v3 (addf : (⟨S100000x1024, .f32⟩ : BufTy).Contents (Elt F) → (⟨S100000x1024, .f32⟩ : BufTy).Contents (Elt F) → (⟨S100000x1024, .f32⟩ : BufTy).Contents (Elt F)),
    nullary main_call0_cst ((constant S_ .f32 0x00000000#32) : (⟨S_, .f32⟩ : BufTy).Contents (Elt F)),
    unary main_call0_cst main_call0_v0 ((broadcastInDim S100000x1024 ![] bcast_S_S100000x1024) : (⟨S_, .f32⟩ : BufTy).Contents (Elt F) → (⟨S100000x1024, .f32⟩ : BufTy).Contents (Elt F)),
    binary main_v3 main_call0_v0 main_v4 (maximumf : (⟨S100000x1024, .f32⟩ : BufTy).Contents (Elt F) → (⟨S100000x1024, .f32⟩ : BufTy).Contents (Elt F) → (⟨S100000x1024, .f32⟩ : BufTy).Contents (Elt F)),
    binary main_v4 main_arg3 main_v5 ((fun l r => Host.dotGeneral dot_S100000x1024_S1024x256_S100000x256_1_0_0_1_n_n none l r) : (⟨S100000x1024, .f32⟩ : BufTy).Contents (Elt F) → (⟨S1024x256, .f32⟩ : BufTy).Contents (Elt F) → (⟨S100000x256, .f32⟩ : BufTy).Contents (Elt F)),
    unary main_arg4 main_v6 (broadcastInDim S1x256 ![1] bcast_S256_S1x256_1 : (⟨S256, .f32⟩ : BufTy).Contents (Elt F) → (⟨S1x256, .f32⟩ : BufTy).Contents (Elt F)),
    unary main_v6 main_v7 (broadcastInDim S100000x256 ![0, 1] bcast_S1x256_S100000x256_0_1 : (⟨S1x256, .f32⟩ : BufTy).Contents (Elt F) → (⟨S100000x256, .f32⟩ : BufTy).Contents (Elt F)),
    binary main_v5 main_v7 main_v8 (addf : (⟨S100000x256, .f32⟩ : BufTy).Contents (Elt F) → (⟨S100000x256, .f32⟩ : BufTy).Contents (Elt F) → (⟨S100000x256, .f32⟩ : BufTy).Contents (Elt F)) ]

/-- The last fifteen operations: the log-softmax of `main_v8` into `main_v9`. -/
abbrev opsB : List (HloOp τ sig (Elt F)) :=
  [ nullary main_call1_cst ((constant S_ .f32 0xFF800000#32) : (⟨S_, .f32⟩ : BufTy).Contents (Elt F)),
    binary main_v8 main_call1_cst main_call1_v0 ((fun x v => Host.reduce FloatOps.maximumf x v reducesTo_S100000x256_S100000_d1 h_S_) : (⟨S100000x256, .f32⟩ : BufTy).Contents (Elt F) → (⟨S_, .f32⟩ : BufTy).Contents (Elt F) → (⟨S100000, .f32⟩ : BufTy).Contents (Elt F)),
    nullary main_call1_cst_0 ((constant S_ .f32 0xFF800000#32) : (⟨S_, .f32⟩ : BufTy).Contents (Elt F)),
    unary main_call1_cst_0 main_call1_v1 ((broadcastInDim S100000 ![] bcast_S_S100000) : (⟨S_, .f32⟩ : BufTy).Contents (Elt F) → (⟨S100000, .f32⟩ : BufTy).Contents (Elt F)),
    binary main_call1_v1 main_call1_v0 main_call1_v2 (maximumf : (⟨S100000, .f32⟩ : BufTy).Contents (Elt F) → (⟨S100000, .f32⟩ : BufTy).Contents (Elt F) → (⟨S100000, .f32⟩ : BufTy).Contents (Elt F)),
    unary main_call1_v2 main_call1_v3 ((broadcastInDim S100000x1 ![0] bcast_S100000_S100000x1_0) : (⟨S100000, .f32⟩ : BufTy).Contents (Elt F) → (⟨S100000x1, .f32⟩ : BufTy).Contents (Elt F)),
    unary main_call1_v3 main_call1_v4 ((broadcastInDim S100000x256 ![0, 1] bcast_S100000x1_S100000x256_0_1) : (⟨S100000x1, .f32⟩ : BufTy).Contents (Elt F) → (⟨S100000x256, .f32⟩ : BufTy).Contents (Elt F)),
    binary main_v8 main_call1_v4 main_call1_v5 (subf : (⟨S100000x256, .f32⟩ : BufTy).Contents (Elt F) → (⟨S100000x256, .f32⟩ : BufTy).Contents (Elt F) → (⟨S100000x256, .f32⟩ : BufTy).Contents (Elt F)),
    unary main_call1_v5 main_call1_v6 (Host.exp : (⟨S100000x256, .f32⟩ : BufTy).Contents (Elt F) → (⟨S100000x256, .f32⟩ : BufTy).Contents (Elt F)),
    nullary main_call1_cst_1 ((constant S_ .f32 0x00000000#32) : (⟨S_, .f32⟩ : BufTy).Contents (Elt F)),
    binary main_call1_v6 main_call1_cst_1 main_call1_v7 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_call1_v7 main_call1_v8 ((broadcastInDim S100000x1 ![0] bcast_S100000_S100000x1_0) : (⟨S100000, .f32⟩ : BufTy).Contents (Elt F) → (⟨S100000x1, .f32⟩ : BufTy).Contents (Elt F)),
    unary main_call1_v8 main_call1_v9 (Host.log : (⟨S100000x1, .f32⟩ : BufTy).Contents (Elt F) → (⟨S100000x1, .f32⟩ : BufTy).Contents (Elt F)),
    unary main_call1_v9 main_call1_v10 ((broadcastInDim S100000x256 ![0, 1] bcast_S100000x1_S100000x256_0_1) : (⟨S100000x1, .f32⟩ : BufTy).Contents (Elt F) → (⟨S100000x256, .f32⟩ : BufTy).Contents (Elt F)),
    binary main_call1_v5 main_call1_v10 main_v9 (subf : (⟨S100000x256, .f32⟩ : BufTy).Contents (Elt F) → (⟨S100000x256, .f32⟩ : BufTy).Contents (Elt F) → (⟨S100000x256, .f32⟩ : BufTy).Contents (Elt F)) ]

/-- The program's line is the two stretches one after the other. -/
theorem ops_split : (ops : List (HloOp τ sig (Elt F))) = opsA ++ opsB := rfl

/-- Running one stretch after another is running the second from what the first leaves. -/
theorem after_append (A B : List (HloOp τ sig (Elt F))) (V : Valuation τ sig (Elt F)) :
    after (A ++ B) V = after B (after A V) := by
  induction A generalizing V with
  | nil => rfl
  | cons a A ih => exact ih _

/-- After the first stretch, from any contents, `main_v8` holds the logits of the argument arrays. -/
theorem logits_at (V : Valuation τ sig (Elt F)) :
    after opsA V (main_v8 : DevRef τ sig)
      = logits (V (main_arg0 : DevRef τ sig)) (V (main_arg1 : DevRef τ sig)) (V (main_arg2 : DevRef τ sig))
          (V (main_arg3 : DevRef τ sig)) (V (main_arg4 : DevRef τ sig)) := by
  after_results_simp
  rfl

attribute [local irreducible] Host.reduce in
/-- After the second stretch, from any contents, `main_v9` holds the log-softmax of what `main_v8` held. The row reduce is
    kept folded meanwhile: its body is a fold over all of the operand's entries, which this equation never looks into. -/
theorem logSoftmax_at (W : Valuation τ sig (Elt F)) :
    after opsB W (main_v9 : DevRef τ sig) = logSoftmax (W (main_v8 : DevRef τ sig)) := by
  after_results_simp
  rfl

/-- After the whole line, from any contents, the result array holds the log-softmax of the logits of the arguments. -/
theorem result_at (V : Valuation τ sig (Elt F)) :
    after ops V (main_v9 : DevRef τ sig)
      = logSoftmax (logits (V (main_arg0 : DevRef τ sig)) (V (main_arg1 : DevRef τ sig)) (V (main_arg2 : DevRef τ sig))
          (V (main_arg3 : DevRef τ sig)) (V (main_arg4 : DevRef τ sig))) := by
  rw [ops_split, after_append, logSoftmax_at, logits_at]

set_option maxHeartbeats 2000000 in
/-- Every weakly fair execution of the program, from any memory with zero counters, terminates with the result array at
    the log-softmax of the logits of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = logSoftmax (logits (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v9).trans (result_at _),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.Whole

end
-- ==== Proof.LibHostRows.lean ====
/-
  Rows of a matrix on the host, at the ideal values: the `broadcast_in_dim` steps a jnp program surrounds a row reduction
  with, and the host's own row reductions read at a row.

  A scalar broadcast to any shape reads the scalar everywhere (`scalar_apply`). A vector of length b viewed as a [1, b]
  row and the row repeated along the rows to [a, b] reads entry j at (i, j) (`row_apply`, `rowSpread_apply`): a bias
  added to every row. A vector of length a viewed as an [a, 1] column and the column repeated along the columns to [a, b]
  reads entry i at (i, j) (`column_apply`, `spread_apply`): a row statistic set against the matrix again.

  The host's one-operand reduce along the columns with a maximum body is, at row i, the fold of max from the initial
  value over the row's entries (`rowMaximum_apply`); its sum is the initial value plus the sum of the row's entries
  (`rowSum_apply`). Both with the row's entries written (i, k).
-/
import Idealize.ShloMosaic.PureOps.Ideal.Laws
import Idealize.ShloMosaic.PureOps.Reduce
import Idealize.ShloMosaic.Lib.ValueIdx
import Idealize.ShloMosaic.Lib.Pipeline.Value

noncomputable section

namespace Cert.LibHostRows

open Idealize.ShloMosaic Idealize.ShloMosaic.ValueIdx

variable {α : Type}

/-- A scalar broadcast to any shape reads the scalar at every index. -/
theorem scalar_apply {s : Shape} (v : (⟨0, ![]⟩ : Shape).Idx → α)
    (h : (⟨0, ![]⟩ : Shape).BroadcastsInDim s (![] : Fin 0 → Fin s.rank)) (j : s.Idx) :
    broadcastInDim s ![] h v j = v ix0 :=
  broadcastInDim_apply _ h v j ix0 fun c => c.elim0

/-- A vector of length `b` viewed as a [1, b] row reads entry `j` at (0, j). -/
theorem row_apply {b : ℕ} (v : (⟨1, ![b]⟩ : Shape).Idx → α)
    (h : (⟨1, ![b]⟩ : Shape).BroadcastsInDim ⟨2, ![1, b]⟩ (![1] : Fin 1 → Fin 2)) (u : Fin 1) (j : Fin b) (hb : b ≠ 1) :
    broadcastInDim ⟨2, ![1, b]⟩ ![1] h v (ix2 u j) = v (ix1 j) :=
  broadcastInDim_apply _ h v _ _ fun c => match c with
    | ⟨0, _⟩ => by
        show j.val = if b = 1 then 0 else j.val
        rw [if_neg hb]

/-- A [1, b] row repeated along the rows to [a, b] reads the row's entry `j` at (i, j). -/
theorem rowSpread_apply {a b : ℕ} (v : (⟨2, ![1, b]⟩ : Shape).Idx → α)
    (h : (⟨2, ![1, b]⟩ : Shape).BroadcastsInDim ⟨2, ![a, b]⟩ (![0, 1] : Fin 2 → Fin 2)) (i : Fin a) (j : Fin b) (hb : b ≠ 1) :
    broadcastInDim ⟨2, ![a, b]⟩ ![0, 1] h v (ix2 i j) = v (ix2 (0 : Fin 1) j) :=
  broadcastInDim_apply _ h v _ _ fun c => match c with
    | ⟨0, _⟩ => rfl
    | ⟨1, _⟩ => by
        show j.val = if b = 1 then 0 else j.val
        rw [if_neg hb]

/-- A vector of length `a` viewed as an [a, 1] column reads entry `i` at (i, 0). -/
theorem column_apply {a : ℕ} (v : (⟨1, ![a]⟩ : Shape).Idx → α)
    (h : (⟨1, ![a]⟩ : Shape).BroadcastsInDim ⟨2, ![a, 1]⟩ (![0] : Fin 1 → Fin 2)) (i : Fin a) (u : Fin 1) (ha : a ≠ 1) :
    broadcastInDim ⟨2, ![a, 1]⟩ ![0] h v (ix2 i u) = v (ix1 i) :=
  broadcastInDim_apply _ h v _ _ fun c => match c with
    | ⟨0, _⟩ => by
        show i.val = if a = 1 then 0 else i.val
        rw [if_neg ha]

/-- An [a, 1] column repeated along the columns to [a, b] reads the column's entry `i` at (i, j). -/
theorem spread_apply {a b : ℕ} (v : (⟨2, ![a, 1]⟩ : Shape).Idx → α)
    (h : (⟨2, ![a, 1]⟩ : Shape).BroadcastsInDim ⟨2, ![a, b]⟩ (![0, 1] : Fin 2 → Fin 2)) (i : Fin a) (j : Fin b) (ha : a ≠ 1) :
    broadcastInDim ⟨2, ![a, b]⟩ ![0, 1] h v (ix2 i j) = v (ix2 i (0 : Fin 1)) :=
  broadcastInDim_apply _ h v _ _ fun c => match c with
    | ⟨0, _⟩ => by
        show i.val = if a = 1 then 0 else i.val
        rw [if_neg ha]
    | ⟨1, _⟩ => rfl

/-- The source index over row `i` with `k` inserted on the column axis is (i, k). -/
theorem lift_row {a b : ℕ} (h : Shape.Reduces ⟨2, ![a, b]⟩ [1] ⟨1, ![a]⟩) (i : Fin a) (k : Fin b) :
    h.lift (ix1 i) k = ix2 i k :=
  funext fun c => Fin.ext (by match c with | ⟨0, _⟩ => rfl | ⟨1, _⟩ => rfl)

/-- The host's maximum along the columns, at row `i`: the fold of `max` from the initial value over the row's entries. -/
theorem rowMaximum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel) (i : Fin a) :
    Host.reduce FloatOps.maximumf y init h' hu (ix1 i)
      = (Finset.univ : Finset (Fin b)).fold max (init (Shape.Idx.first hu)) (fun k => y (ix2 i k)) := by
  refine (Host.reduce_eq_fold_single FloatOps.maximumf y init h' h hu (ix1 i)).trans ?_
  exact congrArg (Finset.fold max (init (Shape.Idx.first hu)) · Finset.univ) (funext fun k => congrArg y (lift_row h i k))

/-- The host's sum along the columns, at row `i`: the initial value plus the sum of the row's entries. -/
theorem rowSum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel) (i : Fin a) :
    Host.reduceAdd y init h' hu (ix1 i) = init (Shape.Idx.first hu) + ∑ k : Fin b, y (ix2 i k) := by
  show Ideal.hostReduceAdd h' y (init (Shape.Idx.first hu)) (ix1 i) = _
  rw [Ideal.hostReduceAdd_single h' h]
  exact congrArg (_ + ·) (Finset.sum_congr rfl fun k _ => congrArg y (lift_row h i k))

end Cert.LibHostRows

end
-- ==== Proof.RefRead.lean ====
/-
  The reference's result, read at an entry: it is the specification's `G`.

  Each of the reference's three stretches is read at (r, q) with the row's entries written (r, ·): the host's contraction
  is the plain sum of products over the contracted axis; a bias is the vector's entry at the column; the row maximum is
  the fold of max from −∞, and the one further maximum with −∞ changes nothing; the row sum is 0 plus the sum. So the
  logits at (r, q) are `logitRow` of row r of x, and the log-softmax of an array at (r, q) is `logSoftmaxRow` of its row r.
-/
import proofs.«167817_g67276367724819_cont_9to1c4b_547_19_alg».proof.Proof.RefRun
import proofs.«167817_g67276367724819_cont_9to1c4b_547_19_alg».proof.Proof.Spec
import proofs.«167817_g67276367724819_cont_9to1c4b_547_19_alg».proof.Proof.LibHostRows
import Idealize.ShloMosaic.PureOps.Ideal.Laws
import Idealize.ShloMosaic.Lib.ValueIdx
import Idealize.ShloMosaic.Lib.Pipeline.Value

noncomputable section

namespace Cert.ReferenceIdeal.Whole

open Cert.ReferenceIdeal Cert.ReferenceIdeal.Gen Idealize.ShloMosaic Idealize.ShloMosaic.ValueIdx Cert.Mlp

/-! ## The two contractions -/

/-- The reference's first product: the left operand's row coordinate is the output's row. -/
theorem first_lhs_row (i : S100000x1024.Idx) (c : dot_S100000x512_S512x1024_S100000x1024_1_0_0_1_n_n.contr.Idx) : (dot_S100000x512_S512x1024_S100000x1024_1_0_0_1_n_n.lhsIdx i c 0).val = (i 0).val := by
  unfold DotDims.lhsIdx
  rw [dif_neg (show ¬(0 : Fin S100000x512.rank) ∈ dot_S100000x512_S512x1024_S100000x1024_1_0_0_1_n_n.lhsBatch by decide), dif_pos (show (0 : Fin S100000x512.rank) ∈ dot_S100000x512_S512x1024_S100000x1024_1_0_0_1_n_n.lhsNonContracting by decide)]
  rfl

/-- The reference's first product: the right operand's column coordinate is the output's column. -/
theorem first_rhs_col (i : S100000x1024.Idx) (c : dot_S100000x512_S512x1024_S100000x1024_1_0_0_1_n_n.contr.Idx) : (dot_S100000x512_S512x1024_S100000x1024_1_0_0_1_n_n.rhsIdx i c 1).val = (i 1).val := by
  unfold DotDims.rhsIdx
  rw [dif_neg (show ¬(1 : Fin S512x1024.rank) ∈ dot_S100000x512_S512x1024_S100000x1024_1_0_0_1_n_n.rhsBatch by decide), dif_pos (show (1 : Fin S512x1024.rank) ∈ dot_S100000x512_S512x1024_S100000x1024_1_0_0_1_n_n.rhsNonContracting by decide)]
  rfl

/-- The reference's first product: the sum over the contraction's own index is the sum over j of left (p, j) times right (j, k). -/
theorem first_sum {φ₁ φ₂ : FTy} (x : FVec Ideal S100000x512 φ₁) (w : FVec Ideal S512x1024 φ₂) (p : Fin 100000) (k : Fin 1024) :
    ∑ c : dot_S100000x512_S512x1024_S100000x1024_1_0_0_1_n_n.contr.Idx, x (dot_S100000x512_S512x1024_S100000x1024_1_0_0_1_n_n.lhsIdx (ix2 p k) c) * w (dot_S100000x512_S512x1024_S100000x1024_1_0_0_1_n_n.rhsIdx (ix2 p k) c)
      = ∑ j : Fin 512, x (ix2 p j) * w (ix2 j k) := by
  rw [← Equiv.sum_comp (contrEquiv1 dot_S100000x512_S512x1024_S100000x1024_1_0_0_1_n_n 512 rfl rfl).symm]
  refine Finset.sum_congr rfl fun j _ => ?_
  have hj := contrEquiv1_symm_val dot_S100000x512_S512x1024_S100000x1024_1_0_0_1_n_n 512 rfl rfl j
  have el : dot_S100000x512_S512x1024_S100000x1024_1_0_0_1_n_n.lhsIdx (ix2 p k) ((contrEquiv1 dot_S100000x512_S512x1024_S100000x1024_1_0_0_1_n_n 512 rfl rfl).symm j) = ix2 p j :=
    funext fun a => Fin.ext (by
      match a with
      | ⟨0, _⟩ => exact first_lhs_row _ _
      | ⟨1, _⟩ => exact (DotDims.lhsIdx_val_of_single (d := dot_S100000x512_S512x1024_S100000x1024_1_0_0_1_n_n) (cl := 1) rfl _ _).trans hj)
  have er : dot_S100000x512_S512x1024_S100000x1024_1_0_0_1_n_n.rhsIdx (ix2 p k) ((contrEquiv1 dot_S100000x512_S512x1024_S100000x1024_1_0_0_1_n_n 512 rfl rfl).symm j) = ix2 j k :=
    funext fun a => Fin.ext (by
      match a with
      | ⟨0, _⟩ => exact (DotDims.rhsIdx_val_of_single (d := dot_S100000x512_S512x1024_S100000x1024_1_0_0_1_n_n) (cr := 0) rfl _ _).trans hj
      | ⟨1, _⟩ => exact first_rhs_col _ _)
  rw [el, er]

/-- The reference's second product: the left operand's row coordinate is the output's row. -/
theorem second_lhs_row (i : S100000x256.Idx) (c : dot_S100000x1024_S1024x256_S100000x256_1_0_0_1_n_n.contr.Idx) : (dot_S100000x1024_S1024x256_S100000x256_1_0_0_1_n_n.lhsIdx i c 0).val = (i 0).val := by
  unfold DotDims.lhsIdx
  rw [dif_neg (show ¬(0 : Fin S100000x1024.rank) ∈ dot_S100000x1024_S1024x256_S100000x256_1_0_0_1_n_n.lhsBatch by decide), dif_pos (show (0 : Fin S100000x1024.rank) ∈ dot_S100000x1024_S1024x256_S100000x256_1_0_0_1_n_n.lhsNonContracting by decide)]
  rfl

/-- The reference's second product: the right operand's column coordinate is the output's column. -/
theorem second_rhs_col (i : S100000x256.Idx) (c : dot_S100000x1024_S1024x256_S100000x256_1_0_0_1_n_n.contr.Idx) : (dot_S100000x1024_S1024x256_S100000x256_1_0_0_1_n_n.rhsIdx i c 1).val = (i 1).val := by
  unfold DotDims.rhsIdx
  rw [dif_neg (show ¬(1 : Fin S1024x256.rank) ∈ dot_S100000x1024_S1024x256_S100000x256_1_0_0_1_n_n.rhsBatch by decide), dif_pos (show (1 : Fin S1024x256.rank) ∈ dot_S100000x1024_S1024x256_S100000x256_1_0_0_1_n_n.rhsNonContracting by decide)]
  rfl

/-- The reference's second product: the sum over the contraction's own index is the sum over j of left (p, j) times right (j, k). -/
theorem second_sum {φ₁ φ₂ : FTy} (x : FVec Ideal S100000x1024 φ₁) (w : FVec Ideal S1024x256 φ₂) (p : Fin 100000) (k : Fin 256) :
    ∑ c : dot_S100000x1024_S1024x256_S100000x256_1_0_0_1_n_n.contr.Idx, x (dot_S100000x1024_S1024x256_S100000x256_1_0_0_1_n_n.lhsIdx (ix2 p k) c) * w (dot_S100000x1024_S1024x256_S100000x256_1_0_0_1_n_n.rhsIdx (ix2 p k) c)
      = ∑ j : Fin 1024, x (ix2 p j) * w (ix2 j k) := by
  rw [← Equiv.sum_comp (contrEquiv1 dot_S100000x1024_S1024x256_S100000x256_1_0_0_1_n_n 1024 rfl rfl).symm]
  refine Finset.sum_congr rfl fun j _ => ?_
  have hj := contrEquiv1_symm_val dot_S100000x1024_S1024x256_S100000x256_1_0_0_1_n_n 1024 rfl rfl j
  have el : dot_S100000x1024_S1024x256_S100000x256_1_0_0_1_n_n.lhsIdx (ix2 p k) ((contrEquiv1 dot_S100000x1024_S1024x256_S100000x256_1_0_0_1_n_n 1024 rfl rfl).symm j) = ix2 p j :=
    funext fun a => Fin.ext (by
      match a with
      | ⟨0, _⟩ => exact second_lhs_row _ _
      | ⟨1, _⟩ => exact (DotDims.lhsIdx_val_of_single (d := dot_S100000x1024_S1024x256_S100000x256_1_0_0_1_n_n) (cl := 1) rfl _ _).trans hj)
  have er : dot_S100000x1024_S1024x256_S100000x256_1_0_0_1_n_n.rhsIdx (ix2 p k) ((contrEquiv1 dot_S100000x1024_S1024x256_S100000x256_1_0_0_1_n_n 1024 rfl rfl).symm j) = ix2 j k :=
    funext fun a => Fin.ext (by
      match a with
      | ⟨0, _⟩ => exact (DotDims.rhsIdx_val_of_single (d := dot_S100000x1024_S1024x256_S100000x256_1_0_0_1_n_n) (cr := 0) rfl _ _).trans hj
      | ⟨1, _⟩ => exact second_rhs_col _ _)
  rw [el, er]

/-! ## The three stretches at an entry -/

/-- Entry (r, q) of the logits is the logit q of row r of x. -/
theorem logits_apply (X : FVec Ideal S100000x512 .f32) (W1 : FVec Ideal S512x1024 .f32) (B1 : FVec Ideal S1024 .f32)
    (W2 : FVec Ideal S1024x256 .f32) (B2 : FVec Ideal S256 .f32) (r : Fin 100000) (q : Fin 256) :
    logits (F := Ideal) X W1 B1 W2 B2 (ix2 r q)
      = logitRow (fun j : Fin 512 => X (ix2 r j)) (fun (j : Fin 512) (k : Fin 1024) => W1 (ix2 j k)) (fun k : Fin 1024 => B1 (ix1 k))
          (fun (k : Fin 1024) (q : Fin 256) => W2 (ix2 k q)) (fun q : Fin 256 => B2 (ix1 q)) q := by
  unfold logits logitRow hiddenRow
  refine (addf_apply _ _ _).trans ?_
  refine congrArg₂ (· + ·) ?_
    ((Cert.LibHostRows.rowSpread_apply _ _ r q (by decide)).trans (Cert.LibHostRows.row_apply B2 _ (0 : Fin 1) q (by decide)))
  refine (Ideal.dotGeneral_apply dot_S100000x1024_S1024x256_S100000x256_1_0_0_1_n_n none _ _ W2 (ix2 r q)).trans ?_
  refine (second_sum _ W2 r q).trans ?_
  refine Finset.sum_congr rfl fun k _ => congrArg (· * W2 (ix2 k q)) ?_
  refine (maximumf_apply _ _ _).trans ?_
  refine congrArg₂ max ?_ (Cert.LibHostRows.scalar_apply _ _ (ix2 r k))
  refine (addf_apply _ _ _).trans ?_
  refine congrArg₂ (· + ·) ?_
    ((Cert.LibHostRows.rowSpread_apply _ _ r k (by decide)).trans (Cert.LibHostRows.row_apply B1 _ (0 : Fin 1) k (by decide)))
  exact (Ideal.dotGeneral_apply dot_S100000x512_S512x1024_S100000x1024_1_0_0_1_n_n none _ X W1 (ix2 r k)).trans (first_sum X W1 r k)

/-- Entry (r, q) of an array minus its rows' maxima. -/
theorem shift_apply (z : FVec Ideal S100000x256 .f32) (r : Fin 100000) (q : Fin 256) :
    shift (F := Ideal) z (ix2 r q) = z (ix2 r q) - rowMax (fun q' : Fin 256 => z (ix2 r q')) := by
  unfold shift
  refine (subf_apply _ _ _).trans ?_
  refine congrArg (z (ix2 r q) - ·) ?_
  refine (Cert.LibHostRows.spread_apply _ _ r q (by decide)).trans ?_
  refine (Cert.LibHostRows.column_apply _ _ r (0 : Fin 1) (by decide)).trans ?_
  refine (maximumf_apply _ _ _).trans ?_
  refine (congrArg₂ max (Cert.LibHostRows.scalar_apply _ _ (ix1 r))
    (Cert.LibHostRows.rowMaximum_apply z _ reducesTo_S100000x256_S100000_d1 (by decide) h_S_ r)).trans ?_
  exact max_negInf _

/-- The host's logarithm of a vector, at an index, is the logarithm of the entry. -/
theorem hostLog_apply {s : Shape} (v : FVec Ideal s .f32) (i : s.Idx) : Host.log v i = Ideal.log (v i) := rfl

/-- Entry (r, q) of the log-softmax of an array is the log-softmax of its row r at q. -/
theorem logSoftmax_apply (z : FVec Ideal S100000x256 .f32) (r : Fin 100000) (q : Fin 256) :
    logSoftmax (F := Ideal) z (ix2 r q) = logSoftmaxRow (fun q' : Fin 256 => z (ix2 r q')) q := by
  unfold logSoftmax logSoftmaxRow
  refine (subf_apply _ _ _).trans ?_
  refine congrArg₂ (· - ·) (shift_apply z r q) ?_
  refine (Cert.LibHostRows.spread_apply _ _ r q (by decide)).trans ?_
  refine (hostLog_apply _ _).trans (congrArg Ideal.log ?_)
  refine (Cert.LibHostRows.column_apply _ _ r (0 : Fin 1) (by decide)).trans ?_
  refine (Cert.LibHostRows.rowSum_apply _ _ reducesTo_S100000x256_S100000_d1 (by decide) h_S_ r).trans ?_
  refine (congrArg (· + _) Ideal.ofBits_zero_f32).trans ?_
  refine (zero_add _).trans ?_
  exact Finset.sum_congr rfl fun q' _ => congrArg Ideal.exp (shift_apply z r q')

/-- The reference's result term is `G` of the argument arrays. -/
theorem result_eq (X : FVec Ideal S100000x512 .f32) (W1 : FVec Ideal S512x1024 .f32) (B1 : FVec Ideal S1024 .f32)
    (W2 : FVec Ideal S1024x256 .f32) (B2 : FVec Ideal S256 .f32) :
    logSoftmax (F := Ideal) (logits (F := Ideal) X W1 B1 W2 B2) = G X W1 B1 W2 B2 := by
  funext i
  obtain ⟨r, q, rfl⟩ : ∃ (r : Fin 100000) (q : Fin 256), i = ix2 r q := ⟨i 0, i 1, eq_ix2 i⟩
  refine (logSoftmax_apply _ r q).trans ?_
  exact congrArg (logSoftmaxRow · q) (funext fun q' => logits_apply X W1 B1 W2 B2 r q')

end Cert.ReferenceIdeal.Whole

end
-- ==== Proof.lean ====
/-
  The kernel computes, for each row of x, the logarithm of the softmax of relu (x·W1 + b1)·W2 + b2; so does the reference.

  Both programs are read, at the ideal values, as the same function `G` of the five argument arrays (Proof/Spec.lean): entry
  (r, q) is the log-softmax at q of the logits of row r. The kernel does it twenty blocks of 5000 rows at a time, each
  block as five tiles of 1000 rows, with its matrix products into zero accumulators and its row maxima and sums as lane
  reductions (Proof/Tile.lean, Proof/Block.lean, Proof/KernelArray.lean); the reference does it on whole arrays with one
  more maximum against −∞ (Proof/RefRun.lean, Proof/RefRead.lean). None of these differences changes a row's value on the
  extended reals, and no step uses that the inputs are finite.

  The three frames: the kernel's two are the generated frame proofs; the reference has no kernel, and its frame is its
  run with the result forgotten. The kernel's idealization rewrote nothing, so `preserves` has nothing to state.
-/
import proofs.«167817_g67276367724819_cont_9to1c4b_547_19_alg».proof.Defs
import proofs.«167817_g67276367724819_cont_9to1c4b_547_19_alg».proof.Proof.Gen.Kernel
import proofs.«167817_g67276367724819_cont_9to1c4b_547_19_alg».proof.Proof.Gen.Kernel.Skeleton
import proofs.«167817_g67276367724819_cont_9to1c4b_547_19_alg».proof.Proof.Gen.Kernel.Launch
import proofs.«167817_g67276367724819_cont_9to1c4b_547_19_alg».proof.Proof.Gen.Kernel.Points
import proofs.«167817_g67276367724819_cont_9to1c4b_547_19_alg».proof.Proof.Gen.Kernel.Frame
import proofs.«167817_g67276367724819_cont_9to1c4b_547_19_alg».proof.Proof.Gen.KernelIdeal
import proofs.«167817_g67276367724819_cont_9to1c4b_547_19_alg».proof.Proof.Gen.KernelIdeal.Skeleton
import proofs.«167817_g67276367724819_cont_9to1c4b_547_19_alg».proof.Proof.Gen.KernelIdeal.Launch
import proofs.«167817_g67276367724819_cont_9to1c4b_547_19_alg».proof.Proof.Gen.KernelIdeal.Points
import proofs.«167817_g67276367724819_cont_9to1c4b_547_19_alg».proof.Proof.Gen.KernelIdeal.Frame
import proofs.«167817_g67276367724819_cont_9to1c4b_547_19_alg».proof.Proof.Gen.ReferenceIdeal
import proofs.«167817_g67276367724819_cont_9to1c4b_547_19_alg».proof.Proof.Gen.Pre_finite_inputs
import proofs.«167817_g67276367724819_cont_9to1c4b_547_19_alg».proof.Proof.Gen.KernelIdeal.Value
import proofs.«167817_g67276367724819_cont_9to1c4b_547_19_alg».proof.Proof.KernelArray
import proofs.«167817_g67276367724819_cont_9to1c4b_547_19_alg».proof.Proof.RefRead
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Whole.run (F := Ideal) m ρ)

/-- The idealization rewrote no operation. -/
theorem preserves : Cert.preserves_Kernel_KernelIdeal := trivial

/-- From memories that agree on the arguments, both programs end with the result array at `G` of those arguments. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Whole.run (F := Ideal) m' ρ')
  rw [Cert.ReferenceIdeal.Whole.result_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
